-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 17
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S1x4096, .f32⟩
  | .hbm, ⟨16, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S512x512, .f32⟩
  | .local _ .vmem, ⟨8, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x4096_S_d0_1 : S4096x4096.ReducesTo [0, 1] S_
  h_S_ : 0 < S_.numel
  reducesTo_S8192x4096_S_d0_1 : S8192x4096.ReducesTo [0, 1] S_
  shapeCasts_S_S1x1 : S_.ShapeCasts S1x1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x4096.size a
  hwx0_4 : ∀ i : grid0.Coords, EltTy.bits .f32 = 32 ∨ (Rect.block (s := S8192x4096) S512x512.size (cc0_transform_4 i) (hinb0_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S8192x4096 : S_.BroadcastsInDim S8192x4096 (![] : Fin 0 → Fin S8192x4096.rank)
  reducesTo_S4096x4096_S_d0_1 : S4096x4096.ReducesTo [0, 1] S_
  h_S_ : 0 < S_.numel
  reducesTo_S8192x4096_S_d0_1 : S8192x4096.ReducesTo [0, 1] S_
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, and the one identity on the extended reals that the reference's
  way of writing a sign needs.

  For x of shape [8192, 4096], w of shape [4096, 4096], b of shape [4096] and a scalar s, the result at
  (n, o) is
      (sum over k < 4096 of sign x(n, k) * sign w(o, k)) * s + b(o),
  a matrix product of the two sign matrices (contracting the last axis of both), scaled, plus a bias row.
  The reference spells each sign through a clip: c + (sign a - c) with c = min 1 (max (-1) a).  The clip
  lies between -1 and 1 and a sign is -1, 0 or 1, so both are real numbers (never an infinity), and for
  reals c + (q - c) = q; hence the clipped form is the sign at every extended real a, the infinities included.
-/
import Idealize.ShloMosaic.PureOps.Ideal.Laws
import Idealize.ShloMosaic.Lib.ValueIdx

noncomputable section

namespace Cert.SignGemm

open Idealize.ShloMosaic Idealize.ShloMosaic.ValueIdx

abbrev SX : Shape := ⟨2, ![8192, 4096]⟩
abbrev SW : Shape := ⟨2, ![4096, 4096]⟩
abbrev SB : Shape := ⟨1, ![4096]⟩

/-- The result array: at (n, o) the product of the sign matrices' rows n and o, times the scale, plus bias o. -/
def G (x : SX.Idx → EReal) (w : SW.Idx → EReal) (b : SB.Idx → EReal) (s : EReal) : SX.Idx → EReal :=
  fun i => (∑ k : Fin 4096, Ideal.sign (x (ix2 (i 0) k)) * Ideal.sign (w (ix2 (i 1) k))) * s + b (ix1 (i 1))

/-- The result at an entry given by its two coordinates. -/
theorem G_apply (x : SX.Idx → EReal) (w : SW.Idx → EReal) (b : SB.Idx → EReal) (s : EReal) (n : Fin 8192) (o : Fin 4096) :
    G x w b s (ix2 n o)
      = (∑ k : Fin 4096, Ideal.sign (x (ix2 n k)) * Ideal.sign (w (ix2 o k))) * s + b (ix1 o) := rfl

/-- The patterns of 1.0 and -1.0 denote 1 and -1. -/
theorem ofBits_one : Ideal.ofBits .f32 0x3F800000#32 = 1 := IdealRules.sign_bit.ideal_onePat .f32
theorem ofBits_negOne : Ideal.ofBits .f32 0xBF800000#32 = -1 := IdealRules.sign_bit.ideal_negOnePat .f32

/-- A sign is a real number: -1, 0 or 1. -/
theorem sign_real (a : EReal) : ∃ q : ℝ, Ideal.sign a = (q : EReal) := by
  induction a using EReal.rec with
  | bot => exact ⟨-1, by rw [Ideal.sign_bot]; norm_num⟩
  | top => exact ⟨1, by rw [Ideal.sign_top]; norm_num⟩
  | coe r => exact ⟨_, Ideal.sign_coe r⟩

/-- The clip of any extended real to [-1, 1] is a real number. -/
theorem clip_real (a : EReal) : ∃ r : ℝ, min (1 : EReal) (max (-1) a) = (r : EReal) := by
  have e1 : (1 : EReal) = ((1 : ℝ) : EReal) := EReal.coe_one.symm
  have em : (-1 : EReal) = ((-1 : ℝ) : EReal) := by rw [EReal.coe_neg, EReal.coe_one]
  have hm1 : (-1 : EReal) ≤ 1 := by rw [em, e1]; exact EReal.coe_le_coe_iff.mpr (by norm_num)
  have h1 : min (1 : EReal) (max (-1) a) ≤ 1 := min_le_left _ _
  have h2 : (-1 : EReal) ≤ min (1 : EReal) (max (-1) a) := le_min hm1 (le_max_left _ _)
  have ht : min (1 : EReal) (max (-1) a) ≠ ⊤ := fun e => by
    rw [e] at h1
    exact absurd (top_le_iff.mp h1) (by rw [e1]; exact EReal.coe_ne_top 1)
  have hb : min (1 : EReal) (max (-1) a) ≠ ⊥ := fun e => by
    rw [e] at h2
    exact absurd (le_bot_iff.mp h2) (by rw [em]; exact EReal.coe_ne_bot _)
  exact ⟨_, (EReal.coe_toReal ht hb).symm⟩

/-- The straight-through form of the sign: the clip plus (the sign minus the clip) is the sign. -/
theorem clip_add_sign_sub_clip (a : EReal) :
    min (1 : EReal) (max (-1) a) + (Ideal.sign a - min (1 : EReal) (max (-1) a)) = Ideal.sign a := by
  obtain ⟨r, hr⟩ := clip_real a
  obtain ⟨q, hq⟩ := sign_real a
  rw [hr, hq, ← EReal.coe_sub, ← EReal.coe_add]
  exact congrArg _ (by ring)

end Cert.SignGemm

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.Payload.lean ====
/-
  The kernel body's one stored value, read at an entry of the output block.

  The body loads a block of x rows (512 by 4096), a block of w rows (512 by 4096), the scale (1 by 1) and a
  block of the bias row (1 by 512). It takes the sign of every entry of the two big blocks (1 carrying the
  entry's sign where the entry is not zero, the entry itself, which is zero, elsewhere), multiplies the two sign
  matrices contracting their last axes into a zero accumulator, multiplies every entry by the scale and adds the
  bias row to every row. So the entry (p, q) of the stored block is
      (sum over k < 4096 of sign x0(p, k) * sign x1(q, k)) * scale + bias(0, q).
-/
import proofs.«125345_j89318139887630_1_alg».proof.Proof.Gen.KernelIdeal.Skeleton
import proofs.«125345_j89318139887630_1_alg».proof.Proof.Spec
import proofs.«125345_j89318139887630_1_alg».proof.Proof.LibRowBroadcast
import proofs.«125345_j89318139887630_1_alg».proof.Proof.LibContractLast
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The sign matrix of a loaded block, as the body computes it (narrowed to bf16, which changes nothing
    on the extended reals). -/
def signBlock (v : FVec Ideal S512x4096 .f32) : FVec Ideal S512x4096 .bf16 :=
  truncf .bf16 (select (cmpf .ogt (absf v) (broadcast S512x4096 (Scalar.ofBits .f32 0x00000000#32)))
    (select (cmpf .olt v (constant S512x4096 .f32 0x00000000#32)) (constant S512x4096 .f32 0xBF800000#32)
      (constant S512x4096 .f32 0x3F800000#32)) v) bitsLt_bf16_f32

/-- Entry by entry it is the sign. -/
theorem signBlock_apply (v : FVec Ideal S512x4096 .f32) (j : S512x4096.Idx) : signBlock v j = Ideal.sign (v j) :=
  Ideal.jnp_sign_eq_sign_f32 (v j)

/-- The product of two 512 by 4096 blocks contracting the last axis of both, into a zero accumulator, at (p, q):
    the sum over k of l(p, k) * r(q, k). -/
theorem gemm_apply (l r : FVec Ideal S512x4096 .bf16) (p q : Fin 512) :
    matmul dot_S512x4096_S512x4096_S512x512_1_1_0_0_n_n none l r (constant S512x512 .f32 0x00000000#32) (ix2 p q)
      = ∑ k : Fin 4096, l (ix2 p k) * r (ix2 q k) := by
  simp only [matmul]
  rw [Ideal.matmul_constant_zero_apply]
  contract_last dot_S512x4096_S512x4096_S512x512_1_1_0_0_n_n S512x4096 S512x4096 4096

/-- The one entry of a 1 by 1 block. -/
theorem extract_one (x3 : Vec Ideal S1x1 .f32) : extractAt ![0, 0] x3 inpos_S1x1_p0_0 = x3 (ix2 0 0) :=
  congrArg x3 (funext fun a => by match a with | ⟨0, _⟩ => rfl | ⟨1, _⟩ => rfl)

/-- The body's stored value as the operations it is made of. -/
theorem pay_eq (x0 x1 : Vec Ideal S512x4096 .f32) (x3 : Vec Ideal S1x1 .f32) (x2 : Vec Ideal S1x512 .f32) :
    k0_pay1 (F := Ideal) x0 x1 x3 x2
      = addf (mulf (matmul dot_S512x4096_S512x4096_S512x512_1_1_0_0_n_n none (signBlock x0) (signBlock x1)
            (constant S512x512 .f32 0x00000000#32)) (broadcast S512x512 (extractAt ![0, 0] x3 inpos_S1x1_p0_0)))
          (broadcastTo S512x512 (shapeCast S1x512 x2 shapeCasts_S1x512_S1x512) broadcasts_S1x512_S512x512) := rfl

/-- THE STORED BLOCK AT (p, q): the product of the sign rows p of x0 and q of x1, times the scale, plus bias q. -/
theorem pay_apply (x0 x1 : Vec Ideal S512x4096 .f32) (x3 : Vec Ideal S1x1 .f32) (x2 : Vec Ideal S1x512 .f32)
    (p q : Fin 512) :
    k0_pay1 (F := Ideal) x0 x1 x3 x2 (ix2 p q)
      = (∑ k : Fin 4096, Ideal.sign (x0 (ix2 p k)) * Ideal.sign (x1 (ix2 q k))) * x3 (ix2 0 0) + x2 (ix2 0 q) := by
  rw [pay_eq, addf_apply, mulf_apply, gemm_apply, broadcast_apply, extract_one, shapeCast_self,
    Cert.RowBroadcast.broadcastTo_1b_ab_apply]
  simp only [signBlock_apply]

end Cert.KernelIdeal.Body

end
-- ==== Proof.Blocks.lean ====
/-
  From the blocks the grid points write to the whole result array.

  The grid has 8 by 16 points; the point with coordinates (c, n) loads rows 512 n .. 512 n + 511 of x, rows
  512 c .. 512 c + 511 of w, columns 512 c .. 512 c + 511 of the bias row and the one-entry scale, and writes the
  512 by 512 block (n, c) of the result. So the entry (p, q) of the block a point writes is the entry
  (512 n + p, 512 c + q) of ONE function of the arrays, the specification: its x row is row p of the loaded x
  block, its w row is row q of the loaded w block, its bias is entry q of the loaded bias block. The 128 blocks
  tile the 8192 by 4096 result, so after the run the result array is that function.
-/
import proofs.«125345_j89318139887630_1_alg».proof.Proof.Gen.KernelIdeal.Value
import proofs.«125345_j89318139887630_1_alg».proof.Proof.Payload
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.SignGemm

variable (m : (ℓ : Loc nD τ sig) → Buf (Elt Ideal) ℓ) (ρ : Dev nD → PrngReg)

theorem hz : (![0, 0] : Fin 2 → Nat) = fun _ => 0 := funext fun a => by fin_cases a <;> rfl

/-- How the five windows' block indices move over the grid: the x block follows the output's row block, the
    w block and the bias block follow the output's column block, the scale stays; the output's block indices
    stay in their ranges. Decided over the 128 points. -/
theorem idx_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = 0
    ∧ win0_4.index t (0 : Fin 2) ≤ 15
    ∧ win0_4.index t (1 : Fin 2) ≤ 7 :=
  (by decide +kernel : ∀ t : Fin grid0.N, _)

/-- Every block of the result is some point's. -/
theorem idx_onto : ∀ (q0 : Fin 16) (q1 : Fin 8), ∃ t : Fin cfg0.N, win0_4.index t = ![q0.val, q1.val] :=
  (by decide +kernel : ∀ (q0 : Fin 16) (q1 : Fin 8), ∃ t : Fin grid0.N, win0_4.index t = ![q0.val, q1.val])

/-! ## The loaded blocks as parts of their arrays -/

/-- Row p of the x block at a point is row 512 (row block) + p of x. -/
theorem xblk_apply (c : Dev nD) (t : Fin cfg0.N) (p : Fin 512) (k : Fin 4096) (n : Fin 8192)
    (hn : n.val = win0_4.index t (0 : Fin 2) * 512 + p.val) :
    (iblk m c 0 t : Vec Ideal S512x4096 .f32) (ix2 p k) = V m c main_arg0 (ix2 n k) := by
  show V m c main_arg0 (((cfg0.win 0).blk t).view.emb (ix2 p k)) = V m c main_arg0 (ix2 n k)
  refine congrArg (V m c main_arg0) (funext fun a => Fin.ext ?_)
  obtain ⟨e0, e1, -⟩ := idx_facts t
  match a with
  | ⟨0, _⟩ => show win0_0.index t (0 : Fin 2) * 512 + 1 * p.val = n.val; omega
  | ⟨1, _⟩ => show win0_0.index t (1 : Fin 2) * 4096 + 1 * k.val = k.val; omega

/-- Row q of the w block at a point is row 512 (column block) + q of w. -/
theorem wblk_apply (c : Dev nD) (t : Fin cfg0.N) (q : Fin 512) (k : Fin 4096) (o : Fin 4096)
    (ho : o.val = win0_4.index t (1 : Fin 2) * 512 + q.val) :
    (iblk m c 1 t : Vec Ideal S512x4096 .f32) (ix2 q k) = V m c main_arg1 (ix2 o k) := by
  show V m c main_arg1 (((cfg0.win 1).blk t).view.emb (ix2 q k)) = V m c main_arg1 (ix2 o k)
  refine congrArg (V m c main_arg1) (funext fun a => Fin.ext ?_)
  obtain ⟨-, -, e2, e3, -⟩ := idx_facts t
  match a with
  | ⟨0, _⟩ => show win0_1.index t (0 : Fin 2) * 512 + 1 * q.val = o.val; omega
  | ⟨1, _⟩ => show win0_1.index t (1 : Fin 2) * 4096 + 1 * k.val = k.val; omega

/-- Entry q of the bias block at a point is entry 512 (column block) + q of the bias row. -/
theorem bblk_apply (c : Dev nD) (t : Fin cfg0.N) (q : Fin 512) (o : Fin 4096)
    (ho : o.val = win0_4.index t (1 : Fin 2) * 512 + q.val) :
    (iblk m c 2 t : Vec Ideal S1x512 .f32) (ix2 0 q) = V m c main_v8 (ix2 0 o) := by
  show V m c main_v8 (((cfg0.win 2).blk t).view.emb (ix2 0 q)) = V m c main_v8 (ix2 0 o)
  refine congrArg (V m c main_v8) (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 512 + 1 * q.val = o.val; omega

/-- The scale block at every point is the one-entry scale array. -/
theorem sblk_apply (c : Dev nD) (t : Fin cfg0.N) :
    (iblk m c 3 t : Vec Ideal S1x1 .f32) (ix2 0 0) = V m c main_v7 (ix2 0 0) := by
  show V m c main_v7 (((cfg0.win 3).blk t).view.emb (ix2 0 0)) = V m c main_v7 (ix2 0 0)
  refine congrArg (V m c main_v7) (funext fun a => Fin.ext ?_)
  obtain ⟨-, -, -, -, -, -, e6, e7, -⟩ := idx_facts t
  match a with
  | ⟨0, _⟩ => show win0_3.index t (0 : Fin 2) * 1 + 1 * 0 = 0; omega
  | ⟨1, _⟩ => show win0_3.index t (1 : Fin 2) * 1 + 1 * 0 = 0; omega

/-! ## The result as one function of the arrays the region finds -/

/-- The bias as a vector: the one row of the [1, 4096] array the host reshaped it to. -/
def biasRow (c : Dev nD) : SB.Idx → EReal := fun j => V m c main_v8 (ix2 0 (j 0))

theorem biasRow_apply (c : Dev nD) (o : Fin 4096) : biasRow m c (ix1 o) = V m c main_v8 (ix2 0 o) := rfl

/-- The specification at the arrays as the region finds them. -/
def result (c : Dev nD) : S8192x4096.Idx → EReal :=
  G (V m c main_arg0) (V m c main_arg1) (biasRow m c) (V m c main_v7 (ix2 0 0))

/-- WHAT POINT t WRITES BACK is block t of the specification. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S512x4096) hz, View.ld_unit_zero (S := S1x1) hz, View.ld_unit_zero (S := S1x512) hz]
  funext j
  obtain ⟨p, q, rfl⟩ : ∃ (p : Fin 512) (q : Fin 512), j = ix2 p q := ⟨j 0, j 1, eq_ix2 j⟩
  obtain ⟨-, -, -, -, -, -, -, -, b0, b1⟩ := idx_facts t
  have hp : p.val < 512 := p.isLt
  have hq : q.val < 512 := q.isLt
  obtain ⟨n, hn⟩ : ∃ n : Fin 8192, n.val = win0_4.index t (0 : Fin 2) * 512 + p.val := ⟨⟨_, by omega⟩, rfl⟩
  obtain ⟨o, ho⟩ : ∃ o : Fin 4096, o.val = win0_4.index t (1 : Fin 2) * 512 + q.val := ⟨⟨_, by omega⟩, rfl⟩
  have hI : ((cfg0.win 4).blk t).view.emb (ix2 p q) = (ix2 n o : S8192x4096.Idx) := by
    funext a; apply Fin.ext
    match a with
    | ⟨0, _⟩ => show win0_4.index t (0 : Fin 2) * 512 + 1 * p.val = n.val; omega
    | ⟨1, _⟩ => show win0_4.index t (1 : Fin 2) * 512 + 1 * q.val = o.val; omega
  show k0_pay1 (F := Ideal) (iblk m c 0 t) (iblk m c 1 t) (iblk m c 3 t) (iblk m c 2 t) (ix2 p q)
    = result m c (((cfg0.win 4).blk t).view.emb (ix2 p q))
  refine (Body.pay_apply (iblk m c 0 t) (iblk m c 1 t) (iblk m c 3 t) (iblk m c 2 t) p q).trans ?_
  rw [hI]
  unfold result
  rw [G_apply, biasRow_apply, sblk_apply m c t, bblk_apply m c t q o ho]
  refine congrArg (· + _) (congrArg (· * _) (Finset.sum_congr rfl fun k _ => ?_))
  rw [xblk_apply m c t p k n hn, wblk_apply m c t q k o ho]

/-! ## The cover -/

/-- An index of the result is in point t's block iff each coordinate is in the block's range on its axis. -/
theorem mem_blk (t : Fin cfg0.N) (i : S8192x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v9).slice (win0_4.rect t)).set ↔ _
  rw [View.set_slice_whole, Rect.mem_set_unit]
  exact Iff.rfl

/-- Every index of the result is in some point's block: the point whose block indices are the coordinates' quotients by 512. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- THE RESULT ARRAY after the run is the specification at the arrays the region finds. -/
theorem final (c : Dev nD) : (dats m 0 c).arrAt 4 cfg0.N = result m c :=
  (dats m 0 c).arrAt_eq_of_cover 4 (result m c) (fun t _ => flushed_eq m c t) cover

end Cert.KernelIdeal.Blocks

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Entry.lean ====
/-
  The arrays the region finds, in terms of the arguments, and the kernel's run.

  Before the region the host takes the mean of |w| and the mean of |x| (each a sum of absolute values divided
  by the number of entries), multiplies the two means into one scalar and reshapes it to [1, 1]; and it reshapes
  the bias vector to a row [1, 4096]. It writes neither x nor w. So the region's scale entry is that product of
  means, its bias row entry (0, o) is bias o, and the result array after the run is the specification at the
  arguments with the product of means as the scale.
-/
import proofs.«125345_j89318139887630_1_alg».proof.Proof.Blocks
import proofs.«125345_j89318139887630_1_alg».proof.Proof.LibRowCast
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.SignGemm

variable (m : (ℓ : Loc nD τ sig) → Buf (Elt Ideal) ℓ) (ρ : Dev nD → PrngReg)

/-- The scale as the host computes it: (sum |w| / 2^24) * (sum |x| / 2^25), a rank-0 array. -/
def scaleArr (c : Dev nD) : S_.Idx → EReal :=
  mulf
    (Host.divf
      (Host.reduceAdd (Host.absf (m ((c : Thread nD τ).loc main_arg1))) (constant (F := Ideal) S_ .f32 0x00000000#32)
        reducesTo_S4096x4096_S_d0_1 h_S_)
      (constant (F := Ideal) S_ .f32 0x4B800000#32))
    (Host.divf
      (Host.reduceAdd (Host.absf (m ((c : Thread nD τ).loc main_arg0))) (constant (F := Ideal) S_ .f32 0x00000000#32)
        reducesTo_S8192x4096_S_d0_1 h_S_)
      (constant (F := Ideal) S_ .f32 0x4C000000#32))

/-- The region's scale array is that scalar, reshaped to [1, 1]. -/
theorem V_scale (c : Dev nD) :
    (V m c main_v7 : S1x1.Idx → EReal) = shapeCast S1x1 (scaleArr m c) shapeCasts_S_S1x1 := by
  dsimp only [Gen.V, Gen.hostOps0]
  after_results
  rfl

/-- Its one entry is the scalar. -/
theorem V_scale_apply (c : Dev nD) : (V m c main_v7 : S1x1.Idx → EReal) (ix2 0 0) = scaleArr m c ix0 := by
  rw [V_scale]
  unfold shapeCast
  exact congrArg (scaleArr m c) (funext fun a => a.elim0)

/-- The region's bias array is the bias vector reshaped to a row. -/
theorem V_bias (c : Dev nD) :
    (V m c main_v8 : S1x4096.Idx → EReal) = shapeCast S1x4096 (m ((c : Thread nD τ).loc main_arg2)) shapeCasts_S4096_S1x4096 := by
  dsimp only [Gen.V, Gen.hostOps0]
  after_results
  rfl

/-- So the bias row of the blocks is the bias vector. -/
theorem biasRow_eq (c : Dev nD) : biasRow m c = m ((c : Thread nD τ).loc main_arg2) := by
  funext j
  obtain ⟨o, rfl⟩ : ∃ o : Fin 4096, j = ix1 o := ⟨j 0, eq_ix1 j⟩
  rw [biasRow_apply, V_bias]
  exact Cert.RowCast.shapeCast_row_apply _ _ 0 o

/-- The specification at the region's arrays is the specification at the arguments. -/
theorem result_eq (c : Dev nD) :
    result m c = G (m ((c : Thread nD τ).loc main_arg0)) (m ((c : Thread nD τ).loc main_arg1))
      (m ((c : Thread nD τ).loc main_arg2)) (scaleArr m c ix0) := by
  unfold result
  rw [V_scale_apply, biasRow_eq, V_main_arg0, V_main_arg1]

/-- THE KERNEL'S RUN: every weakly fair execution terminates with the result array at the specification of
    the arguments and the arguments unchanged. -/
theorem run : θ_run defs (onTc (τ := τ) (main (F := Ideal))) ⟨m, fun _ => 0, ρ⟩ fun r => ∀ c : Dev nD,
      r.2.mem ((c : Thread nD τ).loc main_v9) = G (m ((c : Thread nD τ).loc main_arg0)) (m ((c : Thread nD τ).loc main_arg1))
        (m ((c : Thread nD τ).loc main_arg2)) (scaleArr m c ix0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Cert.KernelIdeal.Value.run_blocks m ρ)

end Cert.KernelIdeal.Blocks

end
-- ==== Proof.RefValue.lean ====
/-
  The reference's result, read at an entry, is the specification.

  The reference writes each sign in straight-through form, clip + (sign - clip), which is the sign at every
  extended real. It multiplies the sign matrix of x by the transposed sign matrix of w (a contraction of the
  last axes), multiplies every entry by the mean of |w| and then by the mean of |x|, and adds the bias
  broadcast down the rows. Multiplication of extended reals is associative, so scaling by the two means one
  after the other is scaling by their product.
-/
import proofs.«125345_j89318139887630_1_alg».proof.Proof.Gen.ReferenceIdeal.Read
import proofs.«125345_j89318139887630_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.SignGemm

/-- The straight-through sign of x is the sign of x, entry by entry. -/
theorem signX_apply (x0 : S8192x4096.Idx → EReal) (j : S8192x4096.Idx) :
    val_main_v7 (F := Ideal) x0 j = Ideal.sign (x0 j) := by
  rw [val_main_v7_apply, val_main_v6_apply, val_main_v5_apply, val_main_v4_apply, val_main_call1_v4_apply,
    val_main_call1_v3_apply, val_main_cst_2_apply, val_main_call1_v2_apply, val_main_call1_v1_apply,
    val_main_call1_v0_apply, val_main_cst_1_apply]
  simp only [Ideal.addf_def, Ideal.subf_def, Ideal.minimumf_def, Ideal.maximumf_def, Ideal.hostUnary_sign_def,
    Ideal.ofBits_def, ofBits_one, ofBits_negOne]
  exact clip_add_sign_sub_clip (x0 j)

/-- The straight-through sign of w is the sign of w, entry by entry. -/
theorem signW_apply (x1 : S4096x4096.Idx → EReal) (j : S4096x4096.Idx) :
    val_main_v3 (F := Ideal) x1 j = Ideal.sign (x1 j) := by
  rw [val_main_v3_apply, val_main_v2_apply, val_main_v1_apply, val_main_v0_apply, val_main_call0_v4_apply,
    val_main_call0_v3_apply, val_main_cst_0_apply, val_main_call0_v2_apply, val_main_call0_v1_apply,
    val_main_call0_v0_apply, val_main_cst_apply]
  simp only [Ideal.addf_def, Ideal.subf_def, Ideal.minimumf_def, Ideal.maximumf_def, Ideal.hostUnary_sign_def,
    Ideal.ofBits_def, ofBits_one, ofBits_negOne]
  exact clip_add_sign_sub_clip (x1 j)

/-- THE REFERENCE'S RESULT is the specification with the product of the two means as the scale. -/
theorem result_eq (x0 : S8192x4096.Idx → EReal) (x1 : S4096x4096.Idx → EReal) (x2 : S4096.Idx → EReal) :
    val_main_v21 (F := Ideal) x0 x1 x2
      = G x0 x1 x2 (val_main_v11 (F := Ideal) x1 ix0 * val_main_v14 (F := Ideal) x0 ix0) := by
  funext i
  obtain ⟨n, o, rfl⟩ : ∃ (n : Fin 8192) (o : Fin 4096), i = ix2 n o := ⟨i 0, i 1, eq_ix2 i⟩
  have hl : ∀ k : Fin 4096, lidx_main_v8 (ix2 n o) k = ix2 n k := fun k =>
    funext fun a => Fin.ext (by match a with | ⟨0, _⟩ => rfl | ⟨1, _⟩ => rfl)
  have hr : ∀ k : Fin 4096, ridx_main_v8 (ix2 n o) k = ix2 o k := fun k =>
    funext fun a => Fin.ext (by match a with | ⟨0, _⟩ => rfl | ⟨1, _⟩ => rfl)
  have hb : idx_main_v19 (idx_main_v20 (ix2 n o)) = ix1 o :=
    funext fun a => Fin.ext (by match a with | ⟨0, _⟩ => rfl)
  have h15 : idx_main_v15 (ix2 n o) = ix0 := rfl
  have h17 : idx_main_v17 (ix2 n o) = ix0 := rfl
  rw [G_apply, val_main_v21_apply, val_main_v20_apply, val_main_v19_apply, val_main_v18_apply, val_main_v17_apply,
    val_main_v16_apply, val_main_v15_apply, val_main_v8_apply, hb, h15, h17]
  simp only [hl, hr, signX_apply, signW_apply, Ideal.addf_def, Ideal.mulf_def]
  rw [mul_assoc]

end Cert.ReferenceIdeal.RefValue

end
-- ==== Proof.lean ====
/-
  A sign-quantized linear layer against its plain reference.

  The kernel tiles out = (sign x) (sign w)^T * s + bias over 512 by 512 blocks of the result, where s is the
  product of the means of |w| and |x| computed on the host before the kernel runs; each block is one matrix
  product of a block of sign rows of x with a block of sign rows of w (contracting the last axis of both),
  scaled by s, plus a block of the bias row. The reference computes the same signs in straight-through form
  (clip + (sign - clip)), one whole matrix product, and scales by the two means one after the other.

  At the extended reals the two agree entry by entry: the straight-through form is the sign (the clip and the
  sign are real numbers), a block's entry is the whole product's entry (its rows are rows of the arguments),
  and multiplication is associative. Neither step needs the inputs finite, so the precondition is not opened.

  The two sign reads of the kernel are the ideal reading's only departures from the kernel as printed, each
  stated by its rule. The three frames are the generated frame runs (the reference's is its run with the
  result dropped).
-/
import proofs.«125345_j89318139887630_1_alg».proof.Defs
import proofs.«125345_j89318139887630_1_alg».proof.Proof.Gen.Kernel
import proofs.«125345_j89318139887630_1_alg».proof.Proof.Gen.Kernel.Skeleton
import proofs.«125345_j89318139887630_1_alg».proof.Proof.Gen.Kernel.Launch
import proofs.«125345_j89318139887630_1_alg».proof.Proof.Gen.Kernel.Points
import proofs.«125345_j89318139887630_1_alg».proof.Proof.Gen.Kernel.Frame
import proofs.«125345_j89318139887630_1_alg».proof.Proof.Gen.KernelIdeal
import proofs.«125345_j89318139887630_1_alg».proof.Proof.Gen.KernelIdeal.Skeleton
import proofs.«125345_j89318139887630_1_alg».proof.Proof.Gen.KernelIdeal.Launch
import proofs.«125345_j89318139887630_1_alg».proof.Proof.Gen.KernelIdeal.Points
import proofs.«125345_j89318139887630_1_alg».proof.Proof.Gen.KernelIdeal.Frame
import proofs.«125345_j89318139887630_1_alg».proof.Proof.Gen.ReferenceIdeal
import proofs.«125345_j89318139887630_1_alg».proof.Proof.Gen.Pre_finite_inputs
import proofs.«125345_j89318139887630_1_alg».proof.Proof.Gen.KernelIdeal.Value
import proofs.«125345_j89318139887630_1_alg».proof.Proof.Gen.ReferenceIdeal.Run
import proofs.«125345_j89318139887630_1_alg».proof.Proof.Gen.ReferenceIdeal.Read
import proofs.«125345_j89318139887630_1_alg».proof.Proof.Entry
import proofs.«125345_j89318139887630_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two sign reads: at the extended reals the printed comparison with zero gives -1 below zero and 1
    elsewhere; on words the original gives the pattern of -1.0 or 1.0 by the sign bit. -/
theorem preserves : Cert.preserves_Kernel_KernelIdeal :=
  ⟨IdealRules.sign_bit.statement Cert.KernelIdeal.S512x4096 .f32,
   IdealRules.sign_bit.statement Cert.KernelIdeal.S512x4096 .f32⟩

/-- The scale on the two sides is one term: the product of the mean of |w| and the mean of |x|. -/
theorem scale_eq (x0 : Cert.SignGemm.SX.Idx → EReal) (x1 : Cert.SignGemm.SW.Idx → EReal) :
    mulf
      (Host.divf
        (Host.reduceAdd (Host.absf x1) (constant (F := Ideal) Cert.KernelIdeal.S_ .f32 0x00000000#32)
          Cert.KernelIdeal.Gen.reducesTo_S4096x4096_S_d0_1 Cert.KernelIdeal.Gen.h_S_)
        (constant (F := Ideal) Cert.KernelIdeal.S_ .f32 0x4B800000#32))
      (Host.divf
        (Host.reduceAdd (Host.absf x0) (constant (F := Ideal) Cert.KernelIdeal.S_ .f32 0x00000000#32)
          Cert.KernelIdeal.Gen.reducesTo_S8192x4096_S_d0_1 Cert.KernelIdeal.Gen.h_S_)
        (constant (F := Ideal) Cert.KernelIdeal.S_ .f32 0x4C000000#32)) ix0
    = Cert.ReferenceIdeal.Read.val_main_v11 (F := Ideal) x1 ix0 * Cert.ReferenceIdeal.Read.val_main_v14 (F := Ideal) x0 ix0 := rfl

/-- Both result arrays are the specification at the arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v21_eq,
    Cert.ReferenceIdeal.RefValue.result_eq]
  exact congrArg (Cert.SignGemm.G _ _ _) (scale_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
